-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x100 : Shape := ⟨2, ![262144, 100]⟩
abbrev S262144 : Shape := ⟨1, ![262144]⟩
abbrev S_ : Shape := ⟨0, ![]⟩

class Facts : Prop where
  bcast_S_S262144x100 : S_.BroadcastsInDim S262144x100 (![] : Fin 0 → Fin S262144x100.rank)
  reducesTo_S262144x100_S_d0_1 : S262144x100.ReducesTo [0, 1] S_
  h_S_ : 0 < S_.numel

variable [Facts]

def fn {F : FTy → Type} [FloatOps F] (main_arg0 : FVec F S262144x100 .f32) (main_arg1 : IVec S262144 32) : IVec S_ 1 :=
  let main_v0 : FVec F S262144x100 .f32 := Host.absf main_arg0
  let main_cst : FVec F S_ .f32 := constant S_ .f32 0x7F800000#32
  let main_v1 : FVec F S262144x100 .f32 := broadcastInDim S262144x100 ![] bcast_S_S262144x100 main_cst
  let main_v2 : IVec S262144x100 1 := cmpf .olt main_v0 main_v1
  let main_c : IVec S_ 1 := constantI S_ 1 1#1
  let main_v3 : IVec S_ 1 := (fun x v => Host.reduce IntOp.andi x v reducesTo_S262144x100_S_d0_1 h_S_) main_v2 main_c
  main_v3
-- ==== Kernel.lean ====
abbrev S262144x100 : Shape := ⟨2, ![262144, 100]⟩
abbrev S262144 : Shape := ⟨1, ![262144]⟩
abbrev S8x1x32768 : Shape := ⟨3, ![8, 1, 32768]⟩
abbrev S8x1x100 : Shape := ⟨3, ![8, 1, 100]⟩
abbrev S32768x100 : Shape := ⟨2, ![32768, 100]⟩
abbrev S1x1x32768 : Shape := ⟨3, ![1, 1, 32768]⟩
abbrev S1x1x100 : Shape := ⟨3, ![1, 1, 100]⟩
abbrev S32768x1 : Shape := ⟨2, ![32768, 1]⟩
abbrev S100 : Shape := ⟨1, ![100]⟩
abbrev S1x100 : Shape := ⟨2, ![1, 100]⟩
abbrev S_ : Shape := ⟨0, ![]⟩

abbrev nBuf : Space → Nat
  | .hbm => 8
  | .vmem => 6
  | .smem => 0
  | _ => 0

abbrev bufTy : (tb : Table) → Fin (tcTables nBuf tb) → BufTy
  | .hbm, ⟨0, _⟩ => ⟨S262144x100, .f32⟩
  | .hbm, ⟨1, _⟩ => ⟨S262144, .i32⟩
  | .hbm, ⟨2, _⟩ => ⟨S8x1x32768, .i32⟩
  | .hbm, ⟨3, _⟩ => ⟨S8x1x100, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S32768x100, .f32⟩
  | .local _ .vmem, ⟨1, _⟩ => ⟨S32768x100, .f32⟩
  | .local _ .vmem, ⟨2, _⟩ => ⟨S1x1x32768, .i32⟩
  | .local _ .vmem, ⟨3, _⟩ => ⟨S1x1x32768, .i32⟩
  | .local _ .vmem, ⟨4, _⟩ => ⟨S1x1x100, .f32⟩
  | .local _ .vmem, ⟨5, _⟩ => ⟨S1x1x100, .f32⟩
  | _, _ => ⟨S262144x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32768x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x32768 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x100 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S262144_S8x1x32768 : S262144.ShapeCasts S8x1x32768
  inb_S32768x100_S32768x100_0_0 : ∀ a, (![0, 0] : Fin 2 → Nat) a + S32768x100.size a ≤ S32768x100.size a
  h_S32768x100 : 0 < S32768x100.numel
  inb_S1x1x32768_S1x1x32768_0_0_0 : ∀ a, (![0, 0, 0] : Fin 3 → Nat) a + S1x1x32768.size a ≤ S1x1x32768.size a
  h_S1x1x32768 : 0 < S1x1x32768.numel
  shapeCasts_S1x1x32768_S1x1x32768 : S1x1x32768.ShapeCasts S1x1x32768
  shapeCasts_S1x1x32768_S32768x1 : S1x1x32768.ShapeCasts S32768x1
  iota_S32768x100_d1_w32 : S32768x100.Iotas .tc 32 [1]
  broadcasts_S32768x1_S32768x100 : S32768x1.Broadcasts S32768x100
  natLt_1_32 : 1 < 32
  reduces_S32768x100_S100 : S32768x100.Reduces [0] S100
  shapeCasts_S100_S1x100 : S100.ShapeCasts S1x100
  shapeCasts_S1x100_S1x1x100 : S1x100.ShapeCasts S1x1x100
  inb_S1x1x100_S1x1x100_0_0_0 : ∀ a, (![0, 0, 0] : Fin 3 → Nat) a + S1x1x100.size a ≤ S1x1x100.size a
  h_S1x1x100 : 0 < S1x1x100.numel
  reducesTo_S8x1x100_S_d0_1_2 : S8x1x100.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32768x100.size a ≤ S262144x100.size a
  hwx0_0 : ∀ i : grid0.Coords, EltTy.bits .f32 = 32 ∨ (Rect.block (s := S262144x100) S32768x100.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x32768.size a ≤ S8x1x32768.size a
  hwx0_1 : ∀ i : grid0.Coords, EltTy.bits .i32 = 32 ∨ (Rect.block (s := S8x1x32768) S1x1x32768.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x100.size a ≤ S8x1x100.size a
  hwx0_2 : ∀ i : grid0.Coords, EltTy.bits .f32 = 32 ∨ (Rect.block (s := S8x1x100) S1x1x100.size (cc0_transform_2 i) (hinb0_2 i)).WholeWords (EltTy.packing .f32)

variable [Facts₀]

abbrev win0_0 : Pipeline.Window sig grid0 :=
  Pipeline.Window.ofSpec (Memref.whole main_arg0) S32768x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x32768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x100.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S262144x100 : Shape := ⟨2, ![262144, 100]⟩
abbrev S262144 : Shape := ⟨1, ![262144]⟩
abbrev S100 : Shape := ⟨1, ![100]⟩
abbrev S262144x1 : Shape := ⟨2, ![262144, 1]⟩
abbrev S1x100 : Shape := ⟨2, ![1, 100]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S262144x100, .f32⟩
  | .hbm, ⟨1, _⟩ => ⟨S262144, .i32⟩
  | .hbm, ⟨2, _⟩ => ⟨S100, .i32⟩
  | .hbm, ⟨3, _⟩ => ⟨S262144x1, .i32⟩
  | .hbm, ⟨4, _⟩ => ⟨S1x100, .i32⟩
  | .hbm, ⟨5, _⟩ => ⟨S262144x100, .i32⟩
  | .hbm, ⟨6, _⟩ => ⟨S262144x100, .i32⟩
  | .hbm, ⟨7, _⟩ => ⟨S262144x100, .i1⟩
  | .hbm, ⟨8, _⟩ => ⟨S262144x100, .f32⟩
  | .hbm, ⟨9, _⟩ => ⟨S_, .f32⟩
  | .hbm, ⟨10, _⟩ => ⟨S262144x100, .f32⟩
  | .hbm, ⟨11, _⟩ => ⟨S262144x100, .f32⟩
  | .hbm, ⟨12, _⟩ => ⟨S262144x100, .f32⟩
  | .hbm, ⟨13, _⟩ => ⟨S262144x100, .f32⟩
  | .hbm, ⟨14, _⟩ => ⟨S262144x100, .f32⟩
  | .hbm, ⟨15, _⟩ => ⟨S262144x100, .f32⟩
  | .hbm, ⟨16, _⟩ => ⟨S262144x100, .f32⟩
  | .hbm, ⟨17, _⟩ => ⟨S262144x100, .f32⟩
  | .hbm, ⟨18, _⟩ => ⟨S262144x100, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | _, _ => ⟨S262144x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst_0 : Ref sig .tc := ⟨.hbm, 19, rfl⟩
abbrev main_v16 : Ref sig .tc := ⟨.hbm, 20, rfl⟩
abbrev main_cst_1 : Ref sig .tc := ⟨.hbm, 21, rfl⟩
abbrev main_v17 : Ref sig .tc := ⟨.hbm, 22, rfl⟩

abbrev nD : Nat := 1
abbrev τ : Topo := Topo.v7x

variable {F : FTy → Type} [FloatOps F]

class Facts₀ : Prop where
  bcast_S262144_S262144x1_0 : S262144.BroadcastsInDim S262144x1 (![0] : Fin 1 → Fin S262144x1.rank)
  bcast_S100_S1x100_1 : S100.BroadcastsInDim S1x100 (![1] : Fin 1 → Fin S1x100.rank)
  bcast_S262144x1_S262144x100_0_1 : S262144x1.BroadcastsInDim S262144x100 (![0, 1] : Fin 2 → Fin S262144x100.rank)
  bcast_S1x100_S262144x100_0_1 : S1x100.BroadcastsInDim S262144x100 (![0, 1] : Fin 2 → Fin S262144x100.rank)
  bcast_S_S262144x100 : S_.BroadcastsInDim S262144x100 (![] : Fin 0 → Fin S262144x100.rank)
  reducesTo_S262144x100_S_d0_1 : S262144x100.ReducesTo [0, 1] S_
  h_S_ : 0 < S_.numel

variable [Facts₀]

class Facts : Prop extends Facts₀ where

variable [Facts]
-- ==== Proof.CoralLoss.lean ====
/-
  The ordinal ("CORAL") binary cross-entropy with logits over the extended reals.

  For a sample whose target is the integer `t`, threshold `k` has the level `[t > k]` (one or zero), and a logit `x`
  at that threshold costs `max x 0 - x * [t > k] + log (1 + exp (-|x|))` (`loss`). The loss of a batch is the mean of this
  cost over all 262144 × 100 (sample, threshold) pairs.

  Written here: the cost of one entry, the cost read off the two argument arrays at an entry of the logits
  (`lossAt`), and the one law the proof needs — the total over all entries is the same whether it is taken entry by
  entry or first over the 32768 samples of each of 8 consecutive groups, threshold by threshold, and then over the
  8 × 100 group totals (`sum_regroup`): a re-indexing of one finite sum in a commutative monoid, so it holds on the extended
  reals with no finiteness assumed. `groupTotals` are the 8 × 100 group totals, and `mean` is the total divided by the number of entries, as both programs divide.
-/
import Idealize.ShloMosaic.PureOps.Ideal
import Idealize.ShloMosaic.PureOps.Ideal.Laws
import Idealize.ShloMosaic.Lib.ValueIdx

noncomputable section

namespace Cert.Coral

open Idealize.ShloMosaic Idealize.ShloMosaic.ValueIdx

/-- The logits: one row per sample, one column per threshold. -/
abbrev SLogits : Shape := ⟨2, ![262144, 100]⟩
/-- The targets: one integer per sample. -/
abbrev STargets : Shape := ⟨1, ![262144]⟩
/-- The group totals: one per group of 32768 consecutive samples and per threshold. -/
abbrev SPartial : Shape := ⟨3, ![8, 1, 100]⟩

/-- The level of target `t` at threshold `k`: one when `t > k` as signed integers, zero otherwise. -/
def level (t k : BitVec 32) : EReal := (((IntOp.cmpi .sgt t k).toNat : ℝ) : EReal)

/-- The cost of logit `x` at threshold `k` for a sample of target `t`. -/
def loss (x : EReal) (t k : BitVec 32) : EReal :=
  max x 0 - x * level t k + Ideal.log1p (Ideal.exp (-(max x (-x))))

/-- The cost at entry `i = (sample, threshold)` of the logits `x`, the sample's target read from `t`. -/
def lossAt (x : SLogits.Idx → EReal) (t : STargets.Idx → BitVec 32) (i : SLogits.Idx) : EReal :=
  loss (x i) (t (ix1 (⟨(i 0).val, idx2_lt0 i⟩ : Fin 262144))) (BitVec.ofNat 32 (i 1).val)

/-- Sample `r` of group `j 0`, at threshold `j 2`, as an entry of the logits: row `32768 * (j 0) + r`. -/
def entryOf (j : SPartial.Idx) (r : Fin 32768) : SLogits.Idx :=
  ix2 (⟨(j 0).val * 32768 + r.val, by have h : (j 0).val < 8 := (j 0).isLt; omega⟩ : Fin 262144)
    (⟨(j 2).val, (j 2).isLt⟩ : Fin 100)

/-- Every entry of the logits is exactly one (group, threshold, sample within the group). -/
def regroup : SPartial.Idx × Fin 32768 ≃ SLogits.Idx where
  toFun p := entryOf p.1 p.2
  invFun i :=
    (ix3 (⟨(i 0).val / 32768, by have h : (i 0).val < 262144 := idx2_lt0 i; omega⟩ : Fin 8) (0 : Fin 1)
        (⟨(i 1).val, idx2_lt1 i⟩ : Fin 100),
      ⟨(i 0).val % 32768, Nat.mod_lt _ (by decide)⟩)
  left_inv := by
    rintro ⟨j, r⟩
    have hr : r.val < 32768 := r.isLt
    refine Prod.ext (funext fun a => Fin.ext ?_) (Fin.ext ?_)
    · match a with
      | ⟨0, _⟩ => show ((j 0).val * 32768 + r.val) / 32768 = (j 0).val; omega
      | ⟨1, _⟩ => show 0 = (j 1).val; have h : (j 1).val < 1 := (j 1).isLt; omega
      | ⟨2, _⟩ => rfl
    · show ((j 0).val * 32768 + r.val) % 32768 = r.val; omega
  right_inv := by
    intro i
    refine funext fun a => Fin.ext ?_
    match a with
    | ⟨0, _⟩ => show (i 0).val / 32768 * 32768 + (i 0).val % 32768 = (i 0).val; omega
    | ⟨1, _⟩ => rfl

/-- THE LAW: the total over all entries, taken group by group. -/
theorem sum_regroup (f : SLogits.Idx → EReal) :
    ∑ j : SPartial.Idx, ∑ r : Fin 32768, f (entryOf j r) = ∑ i : SLogits.Idx, f i := by
  rw [← Fintype.sum_prod_type' (fun j r => f (entryOf j r))]
  exact Equiv.sum_comp regroup f

/-- The mean of a total `s`: the quotient by 26214400.0, the number of entries, exactly a binary32 number. -/
def meanOf (s : EReal) : EReal := Ideal.div s (Ideal.ofBits .f32 0x4BC80000#32)

/-- The batch's loss: the mean cost over all (sample, threshold) entries. -/
def mean (x : SLogits.Idx → EReal) (t : STargets.Idx → BitVec 32) : EReal :=
  meanOf (0 + ∑ i : SLogits.Idx, lossAt x t i)

/-- The group totals: for each group of 32768 consecutive samples and each threshold, the group's total cost there. -/
def groupTotals (x : SLogits.Idx → EReal) (t : STargets.Idx → BitVec 32) : SPartial.Idx → EReal :=
  fun j => ∑ r : Fin 32768, lossAt x t (entryOf j r)

/-- The mean of the total of the group totals is the batch's loss. -/
theorem mean_grouped (x : SLogits.Idx → EReal) (t : STargets.Idx → BitVec 32) :
    meanOf (0 + ∑ j : SPartial.Idx, groupTotals x t j) = mean x t := by
  unfold mean groupTotals
  rw [sum_regroup]

/-- A one-bit word widened to 32 bits, read as a signed integer, is the bit. -/
theorem toInt_setWidth_bit (b : BitVec 1) : (b.setWidth 32).toInt = (b.toNat : Int) := by
  rcases BitVec.eq_zero_or_eq_one b with h | h <;> subst h <;> decide

end Cert.Coral

end
-- ==== Proof.GroupTotals.lean ====
/-
  What one grid point of the kernel computes: for each threshold `k`, the total cost of the point's 32768 samples at `k`.

  The body loads a [32768, 100] block `x0` of logits and the matching [1, 1, 32768] row `x1` of targets, lays the targets
  out as a column, compares each with the column index `k` of its entry, turns the comparison bit into 0.0 / 1.0, forms the cost
  of every entry, and adds the costs down each column; the 100 column totals are stored as a [1, 1, 100] block. Read at
  threshold `k` that block is `∑ r, loss (x0 (r, k)) (x1 (0, 0, r)) k` (`groupTotal_apply`): the two outer casts only add unit axes, the sum
  down a column is a finite sum over the row coordinate, the column of targets read at `(r, k)` is target `r`, and the column
  index read there is `k`. The kernel's spelling of one entry's cost — the bit widened to 32 bits and converted as a signed
  integer, `0 - |x|` for the negation — is `loss` (`loss_of_words`).
-/
import proofs.«151073_j13640816132487_2_alg».proof.Proof.Gen.KernelIdeal.Skeleton
import proofs.«151073_j13640816132487_2_alg».proof.Proof.CoralLoss
import Idealize.ShloMosaic.Lib.Pipeline.Value
import Idealize.ShloMosaic.Lib.ValueIdx
import Idealize.ShloMosaic.PureOps.Ideal.Laws

noncomputable section

namespace Cert.KernelIdeal.Hand

open Idealize.ShloMosaic Idealize.ShloMosaic.ValueIdx Cert.KernelIdeal Cert.KernelIdeal.Gen Cert.Coral

/-- One entry's cost as the body spells it: the comparison bit widened to a 32-bit word and converted as a signed integer
    (it is 0 or 1 either way), and `-|x|` written `0 - max x (-x)`, the zero the binary32 word of 0.0. -/
theorem loss_of_words (x : EReal) (t k : BitVec 32) :
    max x (Ideal.ofBits .f32 0x00000000#32) - x * ((((IntOp.cmpi .sgt t k).setWidth 32).toInt : ℝ) : EReal)
        + Ideal.log1p (Ideal.exp (Ideal.ofBits .f32 0x00000000#32 - max x (-x)))
      = loss x t k := by
  unfold loss level
  rw [Ideal.ofBits_zero_f32, toInt_setWidth_bit, Int.cast_natCast, zero_sub]

/-- The body's cost array read at an entry: `loss` of the logit, the target word and the threshold word there. -/
theorem cost_apply (x0 : FVec Ideal S32768x100 .f32) (tv kv : IVec S32768x100 32) (i : S32768x100.Idx) :
    addf (subf (maximumf x0 (broadcast S32768x100 (FloatOps.ofBits (F := Ideal) .f32 0x00000000#32)))
          (mulf x0 (sitofp .f32 (extui 32 (cmpi .sgt tv kv) natLt_1_32))))
        (log1p (exp (subf (broadcast S32768x100 (FloatOps.ofBits (F := Ideal) .f32 0x00000000#32)) (absf x0)))) i
      = loss (x0 i) (tv i) (kv i) :=
  loss_of_words (x0 i) (tv i) (kv i)

/-- The targets' row, laid out as a column and repeated along the thresholds, read at entry `(r, k)`: target `r`. -/
theorem targetColumn_apply (x1 : Vec Ideal S1x1x32768 .i32) (r : Fin 32768) (k : Fin 100) :
    broadcastTo S32768x100
        (shapeCast S32768x1 (shapeCast S1x1x32768 x1 shapeCasts_S1x1x32768_S1x1x32768) shapeCasts_S1x1x32768_S32768x1)
        broadcasts_S32768x1_S32768x100 (ix2 r k)
      = x1 (ix3 (0 : Fin 1) (0 : Fin 1) r) := by
  refine (broadcastTo_apply _ _ (ix2 r k) (ix2 r (0 : Fin 1)) ?_).trans ?_
  · intro a
    match a with
    | ⟨0, _⟩ => rfl
    | ⟨1, _⟩ => rfl
  refine (shapeCast_apply _ _ (ix2 r (0 : Fin 1)) (ix3 (0 : Fin 1) (0 : Fin 1) r) ?_).trans ?_
  · rw [Shape.rowMajor_val_three, Shape.rowMajor_val_two]
    show (0 * 1 + 0) * 32768 + r.val = r.val * 1 + 0
    omega
  exact congrFun (shapeCast_self x1 _) _

/-- WHAT A POINT STORES, at threshold `k`: the total cost of its 32768 samples there. -/
theorem groupTotal_apply (x0 : Vec Ideal S32768x100 .f32) (x1 : Vec Ideal S1x1x32768 .i32) (k : Fin 100) :
    k0_pay1 (F := Ideal) x0 x1 (ix3 (0 : Fin 1) (0 : Fin 1) k)
      = ∑ r : Fin 32768, loss (x0 (ix2 r k)) (x1 (ix3 (0 : Fin 1) (0 : Fin 1) r)) (BitVec.ofNat 32 k.val) := by
  unfold k0_pay1
  refine (shapeCast_apply _ _ (ix3 (0 : Fin 1) (0 : Fin 1) k) (ix2 (0 : Fin 1) k) ?_).trans ?_
  · rw [Shape.rowMajor_val_two, Shape.rowMajor_val_three]; rfl
  refine (shapeCast_apply _ _ (ix2 (0 : Fin 1) k) (ix1 k) ?_).trans ?_
  · rw [Shape.rowMajor_val_one, Shape.rowMajor_val_two]; show k.val = 0 * 100 + k.val; omega
  refine (Ideal.multiReduction_add_single _ _ _ _ _ (ix1 k)).trans ?_
  refine Finset.sum_congr rfl fun r _ => ?_
  have hidx : reduces_S32768x100_S100.lift (ix1 k) r = ix2 (n0 := 32768) (n1 := 100) r k :=
    funext fun a => Fin.ext (by match a with | ⟨0, _⟩ => rfl | ⟨1, _⟩ => rfl)
  rw [hidx]
  refine (cost_apply x0 _ _ (ix2 r k)).trans ?_
  rw [targetColumn_apply x1 r k, iota_single_apply]

end Cert.KernelIdeal.Hand

end
-- ==== Proof.PartialSums.lean ====
/-
  The array of group totals the kernel's grid leaves behind.

  The grid has 8 points. Point `t` is handed rows `32768 t … 32768 t + 32767` of the logits and row `t` of the targets laid out
  [8, 1, 32768] (a row-major regrouping of the 262144 targets, so its entry `(t, 0, r)` is target `32768 t + r`), and writes its
  100 column totals back as block `t` of an [8, 1, 100] array. So what point `t` writes back is block `t` of ONE function of
  the two argument arrays, `groupTotals` (`flushed_eq`); the 8 blocks tile the array (`covered`); hence the array ends holding
  `groupTotals` of the arguments (`partials_final`).
-/
import proofs.«151073_j13640816132487_2_alg».proof.Proof.Gen.KernelIdeal.Frame
import proofs.«151073_j13640816132487_2_alg».proof.Proof.CoralLoss
import proofs.«151073_j13640816132487_2_alg».proof.Proof.GroupTotals
import Idealize.ShloMosaic.Lib.Pipeline.Value
import Idealize.ShloMosaic.Lib.ValueIdx
import Idealize.ShloMosaic.Lib.StableHlo.Run
import Idealize.ShloMosaic.PureOps.Ideal.Laws

noncomputable section

open Idealize.ShloMosaic Idealize.ShloMosaic.TcCoe Idealize.SL.Sem
open Idealize.ShloMosaic.Pipeline (Dat)

namespace Cert.KernelIdeal.Hand

open Idealize.ShloMosaic.ValueIdx Cert.KernelIdeal Cert.KernelIdeal.Gen Cert.Coral

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the grid: every window's block index is the point's number on the leading axis and 0 on the others. -/
theorem idx_facts : ∀ t : Fin cfg0.N, win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- A point's number is below 8. -/
theorem point_lt (t : Fin cfg0.N) : t.val < 8 := by have h : cfg0.N = 8 := N_0; have := t.isLt; omega

/-- The targets as the region finds them: the 262144 targets regrouped row-major as [8, 1, 32768]. -/
theorem targets_entry (c : Dev nD) :
    (V m c main_v0 : S8x1x32768.Idx → BitVec 32)
      = shapeCast S8x1x32768 (m ((c : Thread nD τ).loc main_arg1) : S262144.Idx → BitVec 32) shapeCasts_S262144_S8x1x32768 := by
  show StableHlo.after hostOps0 (fun b => m (c, b)) (Proc.devRef .tc main_v0) = _
  after_results
  rfl

/-- Entry `(r, k)` of the block of logits point `t` is handed: row `32768 t + r`, column `k` of the argument. -/
theorem logitsBlock_apply (c : Dev nD) (t : Fin cfg0.N) (r : Fin 32768) (k : Fin 100) :
    (iblk m c 0 t : Vec Ideal S32768x100 .f32) (ix2 r k)
      = (m ((c : Thread nD τ).loc main_arg0) : SLogits.Idx → EReal)
          (ix2 (⟨t.val * 32768 + r.val, by have := point_lt t; omega⟩ : Fin 262144) k) := by
  obtain ⟨e0, e1, -⟩ := idx_facts t
  unfold iblk
  rw [View.read_apply]
  show V m c main_arg0 _ = m (c.tc.loc main_arg0) _
  rw [V_main_arg0 m c]
  congr 1
  funext a
  apply Fin.ext
  match a with
  | ⟨0, _⟩ => show win0_0.index t (0 : Fin 2) * 32768 + 1 * r.val = t.val * 32768 + r.val; rw [e0]; omega
  | ⟨1, _⟩ => show win0_0.index t (1 : Fin 2) * 100 + 1 * k.val = k.val; rw [e1]; omega

/-- Entry `(0, 0, r)` of the row of targets point `t` is handed: target `32768 t + r` of the argument. -/
theorem targetsBlock_apply (c : Dev nD) (t : Fin cfg0.N) (r : Fin 32768) :
    (iblk m c 1 t : Vec Ideal S1x1x32768 .i32) (ix3 (0 : Fin 1) (0 : Fin 1) r)
      = (m ((c : Thread nD τ).loc main_arg1) : STargets.Idx → BitVec 32)
          (ix1 (⟨t.val * 32768 + r.val, by have := point_lt t; omega⟩ : Fin 262144)) := by
  obtain ⟨-, -, e2, e3, e4, -⟩ := idx_facts t
  have ht := point_lt t
  unfold iblk
  rw [View.read_apply]
  show V m c main_v0 _ = m (c.tc.loc main_arg1) _
  rw [targets_entry m c]
  refine shapeCast_apply _ _ _ _ ?_
  show (S262144.rowMajor (ix1 (⟨t.val * 32768 + r.val, by omega⟩ : Fin 262144))).val
    = (S8x1x32768.rowMajor (((cfg0.win 1).blk t).view.emb (ix3 (0 : Fin 1) (0 : Fin 1) r))).val
  rw [Shape.rowMajor_val_one, Shape.rowMajor_val_three]
  show t.val * 32768 + r.val
    = ((win0_1.index t (0 : Fin 3) * 1 + 1 * 0) * 1 + (win0_1.index t (1 : Fin 3) * 1 + 1 * 0)) * 32768
        + (win0_1.index t (2 : Fin 3) * 32768 + 1 * r.val)
  rw [e2, e3, e4]
  omega

/-- What a point computes from blocks that are group `g`'s rows of the arguments is group `g`'s totals: read at `y` in the
    point's block, the total of output entry `j = (g, 0, y 2)`. -/
theorem point_total (x : SLogits.Idx → EReal) (tg : STargets.Idx → BitVec 32)
    (b0 : Vec Ideal S32768x100 .f32) (b1 : Vec Ideal S1x1x32768 .i32) (g : Fin 8)
    (h0 : ∀ (r : Fin 32768) (k : Fin 100), b0 (ix2 r k) = x (ix2 (⟨g.val * 32768 + r.val, by omega⟩ : Fin 262144) k))
    (h1 : ∀ r : Fin 32768, b1 (ix3 (0 : Fin 1) (0 : Fin 1) r) = tg (ix1 (⟨g.val * 32768 + r.val, by omega⟩ : Fin 262144)))
    (y : S1x1x100.Idx) (j : SPartial.Idx) (hg : (j 0).val = g.val) (hk : (j 2).val = (y 2).val) :
    k0_pay1 (F := Ideal) b0 b1 y = groupTotals x tg j := by
  have hy : y = ix3 (0 : Fin 1) (0 : Fin 1) (⟨(y 2).val, (y 2).isLt⟩ : Fin 100) := funext fun a => Fin.ext (by
    match a with
    | ⟨0, _⟩ => show (y 0).val = 0; have h : (y 0).val < 1 := (y 0).isLt; omega
    | ⟨1, _⟩ => show (y 1).val = 0; have h : (y 1).val < 1 := (y 1).isLt; omega
    | ⟨2, _⟩ => rfl)
  rw [hy, groupTotal_apply]
  unfold groupTotals
  refine Finset.sum_congr rfl fun r _ => ?_
  rw [h0, h1]
  have he : entryOf j r = ix2 (⟨g.val * 32768 + r.val, by omega⟩ : Fin 262144) (⟨(y 2).val, (y 2).isLt⟩ : Fin 100) :=
    funext fun a => Fin.ext (by
      match a with
      | ⟨0, _⟩ => show (j 0).val * 32768 + r.val = g.val * 32768 + r.val; rw [hg]
      | ⟨1, _⟩ => exact hk)
  unfold lossAt
  rw [he]

/-- WHAT POINT `t` WRITES BACK is block `t` of the group totals of the argument arrays. -/
theorem flushed_eq (c : Dev nD) (t : Fin cfg0.N) :
    (dats m 0 c).flushed 2 t
      = ((cfg0.win 2).blk t).view.read (Elt Ideal)
          (groupTotals (m ((c : Thread nD τ).loc main_arg0)) (m ((c : Thread nD τ).loc main_arg1))) := by
  show (cfg0.win 2).cut (grid0.coords t) ((dats m 0 c).after 2 t) = _
  rw [after0_2]
  unfold out0_2
  rw [View.canon_unit_zero hz3]
  simp only [View.ld_unit_zero (S := S32768x100) hz2, View.ld_unit_zero (S := S1x1x32768) hz3]
  obtain ⟨-, -, -, -, -, e5, -, e7⟩ := idx_facts t
  have ht := point_lt t
  have key : ∀ y : S1x1x100.Idx, k0_pay1 (F := Ideal) (iblk m c 0 t) (iblk m c 1 t) y
      = groupTotals (m ((c : Thread nD τ).loc main_arg0)) (m ((c : Thread nD τ).loc main_arg1)) (((cfg0.win 2).blk t).view.emb y) := by
    intro y
    refine point_total _ _ _ _ ⟨t.val, ht⟩ (fun r k => logitsBlock_apply m c t r k) (fun r => targetsBlock_apply m c t r) y _ ?_ ?_
    · show win0_2.index t (0 : Fin 3) * 1 + 1 * (y 0).val = t.val
      have h : (y 0).val < 1 := (y 0).isLt
      rw [e5]; omega
    · show win0_2.index t (2 : Fin 3) * 100 + 1 * (y 2).val = (y 2).val
      rw [e7]; omega
  generalize k0_pay1 (F := Ideal) (iblk m c 0 t) (iblk m c 1 t) = P at key ⊢
  generalize groupTotals (m ((c : Thread nD τ).loc main_arg0)) (m ((c : Thread nD τ).loc main_arg1)) = G at key ⊢
  funext y
  exact key y

/-- An index of the array is in point `t`'s block iff each coordinate is in the block's range on its axis. -/
theorem mem_blk (t : Fin cfg0.N) (i : S8x1x100.Idx) :
    i ∈ ((cfg0.win 2).blk t).view.set
      ↔ ∀ a : Fin 3, win0_2.index t a * S1x1x100.size a ≤ (i a).val ∧ (i a).val < win0_2.index t a * S1x1x100.size a + S1x1x100.size a := by
  show i ∈ ((View.whole main_v1).slice (win0_2.rect t)).set ↔ _
  rw [View.set_slice_whole, Rect.mem_set_unit]
  exact Iff.rfl

/-- Every entry of the array of group totals is in the block some point writes back: entry `(g, 0, k)` in point `g`'s. -/
theorem covered (i : S8x1x100.Idx) :
    ∃ t : Fin cfg0.N, (cfg0.win 2).flush t = true ∧ i ∈ ((cfg0.win 2).blk t).view.set := by
  have hN : cfg0.N = 8 := N_0
  have h0 : (i 0).val < 8 := (i 0).isLt
  have h1 : (i 1).val < 1 := (i 1).isLt
  have h2 : (i 2).val < 100 := (i 2).isLt
  obtain ⟨t, ht⟩ : ∃ t : Fin cfg0.N, t.val = (i 0).val := ⟨⟨(i 0).val, by omega⟩, rfl⟩
  refine ⟨t, flush0_2 t, ?_⟩
  rw [mem_blk]
  obtain ⟨-, -, -, -, -, e5, e6, e7⟩ := idx_facts t
  intro a
  match a with
  | ⟨0, _⟩ =>
    show win0_2.index t (0 : Fin 3) * 1 ≤ (i 0).val ∧ (i 0).val < win0_2.index t (0 : Fin 3) * 1 + 1
    rw [e5]; omega
  | ⟨1, _⟩ =>
    show win0_2.index t (1 : Fin 3) * 1 ≤ (i 1).val ∧ (i 1).val < win0_2.index t (1 : Fin 3) * 1 + 1
    rw [e6]; omega
  | ⟨2, _⟩ =>
    show win0_2.index t (2 : Fin 3) * 100 ≤ (i 2).val ∧ (i 2).val < win0_2.index t (2 : Fin 3) * 100 + 100
    rw [e7]; omega

/-- THE ARRAY after the region: the group totals of the argument arrays. -/
theorem partials_final (c : Dev nD) :
    (dats m 0 c).arrAt 2 cfg0.N
      = groupTotals (m ((c : Thread nD τ).loc main_arg0)) (m ((c : Thread nD τ).loc main_arg1)) :=
  (dats m 0 c).arrAt_eq_of_cover 2 _ (fun t _ => flushed_eq m c t) covered

end Cert.KernelIdeal.Hand

end
-- ==== Proof.KernelRun.lean ====
/-
  The kernel program's result is the batch's loss.

  After the grid the program adds the 8 × 1 × 100 group totals onto 0.0 and divides by 26214400.0, on the host. The array it adds
  up is the one the grid left (`partials_final`: the group totals of the arguments), so the result buffer ends holding the mean
  of the total of the group totals (`hostMean`), which is the batch's loss by the regrouping law (`mean_grouped`): `result_eq`.
  `run` restates the generated run of the whole program with the result buffer at that value and the arguments unchanged.
-/
import proofs.«151073_j13640816132487_2_alg».proof.Proof.Gen.KernelIdeal.Frame
import proofs.«151073_j13640816132487_2_alg».proof.Proof.CoralLoss
import proofs.«151073_j13640816132487_2_alg».proof.Proof.PartialSums
import Idealize.ShloMosaic.Lib.Pipeline.Value
import Idealize.ShloMosaic.Lib.ValueIdx
import Idealize.ShloMosaic.Lib.StableHlo.Run
import Idealize.ShloMosaic.PureOps.Ideal.Laws

noncomputable section

open Idealize.ShloMosaic Idealize.ShloMosaic.TcCoe Idealize.SL.Sem
open Idealize.ShloMosaic.Pipeline (Dat)

namespace Cert.KernelIdeal.Hand

open Idealize.ShloMosaic.ValueIdx Cert.KernelIdeal Cert.KernelIdeal.Gen Cert.Coral

variable (m : (ℓ : Loc nD τ sig) → Buf (Elt Ideal) ℓ) (ρ : Dev nD → PrngReg)

/-- The host's total of an [8, 1, 100] array onto 0.0, divided by 26214400.0: the mean of `0 +` the sum of its entries. -/
theorem hostMean (G : S8x1x100.Idx → EReal) (i : S_.Idx) :
    Host.divf (F := Ideal) (φ := .f32)
        (Host.reduceAdd (F := Ideal) (φ := .f32) G (constant (F := Ideal) S_ .f32 0x00000000#32) reducesTo_S8x1x100_S_d0_1_2 h_S_)
        (constant (F := Ideal) S_ .f32 0x4BC80000#32) i
      = meanOf (0 + ∑ j : S8x1x100.Idx, G j) := by
  show Ideal.div (Host.reduceAdd (F := Ideal) (φ := .f32) G (constant (F := Ideal) S_ .f32 0x00000000#32) reducesTo_S8x1x100_S_d0_1_2 h_S_ i)
      (Ideal.ofBits .f32 0x4BC80000#32) = _
  unfold meanOf
  refine congrArg (fun s => Ideal.div s (Ideal.ofBits .f32 0x4BC80000#32)) ?_
  simp only [Host.reduceAdd, Ideal.hostReduceAdd_def]
  refine (Ideal.hostReduceAdd_total reducesTo_S8x1x100_S_d0_1_2 (fun b => b.elim0) G _ i).trans ?_
  show Ideal.ofBits .f32 0x00000000#32 + _ = _
  rw [Ideal.ofBits_zero_f32]

/-- THE RESULT BUFFER after the lines that follow the grid: the batch's loss of the argument arrays. -/
theorem result_eq (c : Dev nD) :
    Pipeline.afterTail₀ cfgs (dats m) 0 (V0 m) [hostOps1] c main_v3
      = fun _ => mean (m ((c : Thread nD τ).loc main_arg0)) (m ((c : Thread nD τ).loc main_arg1)) := by
  have e : (Pipeline.withArrays (cfgs 0).spec c (V0 m c) (fun w => (dats m 0 c).arrAt w (cfgs 0).N) (Proc.devRef .tc main_v1)
        : S8x1x100.Idx → EReal)
      = groupTotals (m ((c : Thread nD τ).loc main_arg0)) (m ((c : Thread nD τ).loc main_arg1)) :=
    (Pipeline.withArrays_arr spec0 launch0.win.arr_inj c (V0 m c) (fun w => (dats m 0 c).arrAt w cfg0.N) 2).trans
      (partials_final m c)
  unfold Pipeline.afterTail₀
  show StableHlo.after hostOps1 _ (Proc.devRef .tc main_v3) = _
  after_results
  rw [e]
  funext i
  exact (hostMean _ i).trans (mean_grouped _ _)

/-- THE RUN, read: every weakly fair execution of the kernel program ends with the result buffer at the batch's loss of the
    argument arrays, and the argument arrays as launched. -/
theorem run : θ_run defs (onTc (τ := τ) (main (F := Ideal))) ⟨m, fun _ => 0, ρ⟩ fun r => ∀ c : Dev nD,
      r.2.mem ((c.tc : Thread nD τ).loc main_v3)
        = (fun _ => mean (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v3 (Pipeline.mem_restRefs_of main_v3 (by decide) (by decide))).trans (result_eq m c),
        ((h c).1 0).trans (((dats m 0 c).arrAt_in 0 rfl _).trans ((A_eq m c 0).trans (V_main_arg0 m c))),
        ((h c).2 main_arg1 (Pipeline.mem_restRefs_of main_arg1 (by decide) (by decide))).trans (W_main_arg1 m (dats m) c)⟩)
    (run_main m ρ)

end Cert.KernelIdeal.Hand

end
-- ==== Proof.ReferenceMean.lean ====
/-
  The reference's result is the batch's loss.

  The reference builds the whole [262144, 100] array of costs on the host — the targets broadcast along the thresholds and
  compared with a broadcast row of column indices, the comparison bit converted to 0.0 / 1.0, `max x 0 - x * level +
  log1p (exp (-|x|))` entry by entry —, adds all its entries onto 0.0 and divides by 26214400.0. Read one operation at a time at
  an entry `i = (sample, threshold)`, the cost array holds `lossAt` of the two arguments there (`cost_apply`: the broadcasts read
  the sample's target and the threshold's index, the host's spelling of the cost is `loss`), so the result is `mean` (`result_eq`).
-/
import proofs.«151073_j13640816132487_2_alg».proof.Proof.Gen.ReferenceIdeal.Read
import proofs.«151073_j13640816132487_2_alg».proof.Proof.CoralLoss
import Idealize.ShloMosaic.Lib.ValueIdx
import Idealize.ShloMosaic.PureOps.Ideal.Laws

noncomputable section

namespace Cert.ReferenceIdeal.Hand

open Idealize.ShloMosaic Idealize.ShloMosaic.ValueIdx Cert.ReferenceIdeal Cert.ReferenceIdeal.Read Cert.Coral

/-- One entry's cost as the host spells it: the comparison bit converted as an unsigned integer, the negation and the
    absolute value the host's own, the zero the binary32 word of 0.0. -/
theorem loss_of_host (x : EReal) (t k : BitVec 32) :
    FloatOps.addf (F := Ideal) (φ := .f32)
        (FloatOps.subf (FloatOps.maximumf x (FloatOps.ofBits .f32 0x00000000#32))
          (FloatOps.mulf x (FloatOps.uitofp .f32 (IntOp.cmpi .sgt t k))))
        (FloatOps.hostUnary .log1p (FloatOps.hostUnary .exp (FloatOps.hostNegf (FloatOps.hostAbsf x))))
      = loss x t k := by
  show max x (Ideal.ofBits .f32 0x00000000#32) - x * (((IntOp.cmpi .sgt t k).toNat : ℝ) : EReal)
      + Ideal.log1p (Ideal.exp (-(max x (-x)))) = _
  unfold loss level
  rw [Ideal.ofBits_zero_f32]

/-- The two broadcasts of the targets read at entry `i` reach the target of sample `i 0`. -/
theorem row_idx (i : S262144x100.Idx) :
    idx_main_v1 (idx_main_v3 i) = ix1 (⟨(i 0).val, idx2_lt0 i⟩ : Fin 262144) :=
  funext fun a => Fin.ext (by match a with | ⟨0, _⟩ => rfl)

/-- THE COST ARRAY, read at an entry: the cost of that (sample, threshold) pair. -/
theorem cost_apply (x0 : S262144x100.Idx → EReal) (x1 : S262144.Idx → BitVec 32) (i : S262144x100.Idx) :
    val_main_v15 (F := Ideal) x0 x1 i = lossAt x0 x1 i := by
  rw [val_main_v15_apply, val_main_v10_apply, val_main_v8_apply, val_main_v7_apply, val_main_cst_apply,
    val_main_v9_apply, val_main_v6_apply, val_main_v5_apply, val_main_v3_apply, val_main_v1_apply,
    val_main_v4_apply, val_main_v2_apply, val_main_v0_apply,
    val_main_v14_apply, val_main_v13_apply, val_main_v12_apply, val_main_v11_apply, row_idx]
  exact loss_of_host _ _ _

/-- THE RESULT: the mean cost over all entries. -/
theorem result_eq (x0 : S262144x100.Idx → EReal) (x1 : S262144.Idx → BitVec 32) :
    val_main_v17 (F := Ideal) x0 x1 = fun _ => mean x0 x1 := by
  funext i
  rw [val_main_v17_apply, val_main_v16_apply, val_main_cst_1_apply, val_main_cst_0_apply]
  simp only [cost_apply]
  show Ideal.div (Ideal.ofBits .f32 0x00000000#32 + ∑ j : SLogits.Idx, lossAt x0 x1 j) (Ideal.ofBits .f32 0x4BC80000#32) = _
  rw [Ideal.ofBits_zero_f32]
  rfl

end Cert.ReferenceIdeal.Hand

end
-- ==== Proof.lean ====
/-
  The certificate of the ordinal ("CORAL") cross-entropy kernel against its jnp reference, over the extended reals.

  Both programs compute the mean, over all 262144 × 100 (sample, threshold) pairs, of
  `max x 0 - x * [target > threshold] + log (1 + exp (-|x|))`. The reference forms the whole array of costs, adds it up and
  divides by 26214400.0. The kernel's grid of 8 points adds the costs of 32768 samples at a time, threshold by threshold, into an
  [8, 1, 100] array of group totals; the lines after the grid add those up and divide by the same 26214400.0. The two totals are
  one finite sum indexed two ways, and addition on the extended reals is commutative and associative, so the results agree with
  no assumption on the inputs (the precondition is never opened).

  The pieces: `Proof/CoralLoss.lean` (the cost, the mean, the regrouping law), `Proof/GroupTotals.lean` (what one grid point
  stores), `Proof/PartialSums.lean` (the array the grid leaves), `Proof/KernelRun.lean` (the kernel program's result),
  `Proof/ReferenceMean.lean` (the reference's result). The three frames are the generated ones (the reference's is its generated run
  with the result dropped); the kernel's idealization rewrote nothing, so there is nothing to preserve.
-/
import proofs.«151073_j13640816132487_2_alg».proof.Defs
import proofs.«151073_j13640816132487_2_alg».proof.Proof.Gen.Kernel
import proofs.«151073_j13640816132487_2_alg».proof.Proof.Gen.Kernel.Skeleton
import proofs.«151073_j13640816132487_2_alg».proof.Proof.Gen.Kernel.Launch
import proofs.«151073_j13640816132487_2_alg».proof.Proof.Gen.Kernel.Points
import proofs.«151073_j13640816132487_2_alg».proof.Proof.Gen.Kernel.Frame
import proofs.«151073_j13640816132487_2_alg».proof.Proof.Gen.KernelIdeal
import proofs.«151073_j13640816132487_2_alg».proof.Proof.Gen.KernelIdeal.Skeleton
import proofs.«151073_j13640816132487_2_alg».proof.Proof.Gen.KernelIdeal.Launch
import proofs.«151073_j13640816132487_2_alg».proof.Proof.Gen.KernelIdeal.Points
import proofs.«151073_j13640816132487_2_alg».proof.Proof.Gen.KernelIdeal.Frame
import proofs.«151073_j13640816132487_2_alg».proof.Proof.Gen.ReferenceIdeal
import proofs.«151073_j13640816132487_2_alg».proof.Proof.Gen.Pre_finite_inputs
import proofs.«151073_j13640816132487_2_alg».proof.Proof.Gen.ReferenceIdeal.Run
import proofs.«151073_j13640816132487_2_alg».proof.Proof.Gen.ReferenceIdeal.Read
import proofs.«151073_j13640816132487_2_alg».proof.Proof.KernelRun
import proofs.«151073_j13640816132487_2_alg».proof.Proof.ReferenceMean
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- So does the reference: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- From memories agreeing on the logits and the targets, both programs end with the batch's loss of those arrays in their
    result buffers: the kernel program by the group totals and the regrouping law, the reference entry by entry. -/
theorem algebraic : Cert.algebraic_KernelIdeal_ReferenceIdeal := by
  intro m ρ m' ρ' _ hagree
  refine ⟨fun c => fun _ => Cert.Coral.mean (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.Hand.result_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
